-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11264x4096 : Shape := ⟨2, ![11264, 4096]⟩
abbrev S11264x64 : Shape := ⟨2, ![11264, 64]⟩
abbrev S4096 : Shape := ⟨1, ![4096]⟩
abbrev S11264 : Shape := ⟨1, ![11264]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11264x64 : S_.BroadcastsInDim S11264x64 (![] : Fin 0 → Fin S11264x64.rank)
  reducesTo_S11264x64_S_d0_1 : S11264x64.ReducesTo [0, 1] S_
  bcast_S_S4096 : S_.BroadcastsInDim S4096 (![] : Fin 0 → Fin S4096.rank)
  reducesTo_S4096_S_d0 : S4096.ReducesTo [0] S_
  bcast_S_S11264 : S_.BroadcastsInDim S11264 (![] : Fin 0 → Fin S11264.rank)
  reducesTo_S11264_S_d0 : S11264.ReducesTo [0] S_

variable [Facts]

def fn_part1 {F : FTy → Type} [FloatOps F] (main_arg5 : FVec F S11264 .f32) (main_arg6 : FVec F S11264 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S11264 .f32 := Host.absf main_arg5
  let main_cst_6 : FVec F S_ .f32 := constant S_ .f32 0x7F800000#32
  let main_v20 : FVec F S11264 .f32 := broadcastInDim S11264 ![] bcast_S_S11264 main_cst_6
  let main_v21 : IVec S11264 1 := cmpf .olt main_v19 main_v20
  let main_c_7 : IVec S_ 1 := constantI S_ 1 1#1
  let main_v22 : IVec S_ 1 := (fun x v => Host.reduce IntOp.andi x v reducesTo_S11264_S_d0 h_S_) main_v21 main_c_7
  let main_v23 : IVec S_ 1 := andi main_v18 main_v22
  let main_v24 : FVec F S11264 .f32 := Host.absf main_arg6
  let main_cst_8 : FVec F S_ .f32 := constant S_ .f32 0x7F800000#32
  let main_v25 : FVec F S11264 .f32 := broadcastInDim S11264 ![] bcast_S_S11264 main_cst_8
  let main_v26 : IVec S11264 1 := cmpf .olt main_v24 main_v25
  let main_c_9 : IVec S_ 1 := constantI S_ 1 1#1
  let main_v27 : IVec S_ 1 := (fun x v => Host.reduce IntOp.andi x v reducesTo_S11264_S_d0 h_S_) main_v26 main_c_9
  let main_v28 : IVec S_ 1 := andi main_v23 main_v27
  main_v28

def fn {F : FTy → Type} [FloatOps F] (main_arg0 : FVec F S4096x4096 .f32) (main_arg1 : IVec S11264x4096 32) (main_arg2 : FVec F S11264x64 .f32) (main_arg3 : FVec F S11264x64 .f32) (main_arg4 : FVec F S4096 .f32) (main_arg5 : FVec F S11264 .f32) (main_arg6 : FVec F S11264 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11264x64 .f32 := Host.absf main_arg2
  let main_cst_0 : FVec F S_ .f32 := constant S_ .f32 0x7F800000#32
  let main_v5 : FVec F S11264x64 .f32 := broadcastInDim S11264x64 ![] bcast_S_S11264x64 main_cst_0
  let main_v6 : IVec S11264x64 1 := cmpf .olt main_v4 main_v5
  let main_c_1 : IVec S_ 1 := constantI S_ 1 1#1
  let main_v7 : IVec S_ 1 := (fun x v => Host.reduce IntOp.andi x v reducesTo_S11264x64_S_d0_1 h_S_) main_v6 main_c_1
  let main_v8 : IVec S_ 1 := andi main_v3 main_v7
  let main_v9 : FVec F S11264x64 .f32 := Host.absf main_arg3
  let main_cst_2 : FVec F S_ .f32 := constant S_ .f32 0x7F800000#32
  let main_v10 : FVec F S11264x64 .f32 := broadcastInDim S11264x64 ![] bcast_S_S11264x64 main_cst_2
  let main_v11 : IVec S11264x64 1 := cmpf .olt main_v9 main_v10
  let main_c_3 : IVec S_ 1 := constantI S_ 1 1#1
  let main_v12 : IVec S_ 1 := (fun x v => Host.reduce IntOp.andi x v reducesTo_S11264x64_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg6 main_v13 main_v16
-- ==== Kernel.lean ====
abbrev S4096x4096 : Shape := ⟨2, ![4096, 4096]⟩
abbrev S11264x4096 : Shape := ⟨2, ![11264, 4096]⟩
abbrev S11264x64 : Shape := ⟨2, ![11264, 64]⟩
abbrev S4096 : Shape := ⟨1, ![4096]⟩
abbrev S11264 : Shape := ⟨1, ![11264]⟩
abbrev S1x4096 : Shape := ⟨2, ![1, 4096]⟩
abbrev S11264x1 : Shape := ⟨2, ![11264, 1]⟩
abbrev S1x11264 : Shape := ⟨2, ![1, 11264]⟩
abbrev S4096x11264 : Shape := ⟨2, ![4096, 11264]⟩
abbrev S128x4096 : Shape := ⟨2, ![128, 4096]⟩
abbrev S128x64 : Shape := ⟨2, ![128, 64]⟩
abbrev S128x1 : Shape := ⟨2, ![128, 1]⟩
abbrev S1x128 : Shape := ⟨2, ![1, 128]⟩
abbrev S128x128 : Shape := ⟨2, ![128, 128]⟩
abbrev S128x64x64 : Shape := ⟨3, ![128, 64, 64]⟩
abbrev S128x64x1 : Shape := ⟨3, ![128, 64, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S11264x4096, .i32⟩
  | .hbm, ⟨2, _⟩ => ⟨S11264x64, .f32⟩
  | .hbm, ⟨3, _⟩ => ⟨S11264x64, .f32⟩
  | .hbm, ⟨4, _⟩ => ⟨S4096, .f32⟩
  | .hbm, ⟨5, _⟩ => ⟨S11264, .f32⟩
  | .hbm, ⟨6, _⟩ => ⟨S11264, .f32⟩
  | .hbm, ⟨7, _⟩ => ⟨S1x4096, .f32⟩
  | .hbm, ⟨8, _⟩ => ⟨S11264x1, .f32⟩
  | .hbm, ⟨9, _⟩ => ⟨S1x11264, .f32⟩
  | .hbm, ⟨10, _⟩ => ⟨S4096x11264, .f32⟩
  | .local _ .vmem, ⟨0, _⟩ => ⟨S128x4096, .f32⟩
  | .local _ .vmem, ⟨1, _⟩ => ⟨S128x4096, .f32⟩
  | .local _ .vmem, ⟨2, _⟩ => ⟨S128x4096, .i32⟩
  | .local _ .vmem, ⟨3, _⟩ => ⟨S128x4096, .i32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S1x4096, .f32⟩
  | .local _ .vmem, ⟨9, _⟩ => ⟨S128x1, .f32⟩
  | .local _ .vmem, ⟨10, _⟩ => ⟨S128x1, .f32⟩
  | .local _ .vmem, ⟨11, _⟩ => ⟨S1x128, .f32⟩
  | .local _ .vmem, ⟨12, _⟩ => ⟨S1x128, .f32⟩
  | .local _ .vmem, ⟨13, _⟩ => ⟨S128x128, .f32⟩
  | .local _ .vmem, ⟨14, _⟩ => ⟨S128x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 88], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4096_S1x4096 : S4096.ShapeCasts S1x4096
  shapeCasts_S11264_S11264x1 : S11264.ShapeCasts S11264x1
  shapeCasts_S11264_S1x11264 : S11264.ShapeCasts S1x11264
  inb_S128x4096_S128x4096_0_0 : ∀ a, (![0, 0] : Fin 2 → Nat) a + S128x4096.size a ≤ S128x4096.size a
  h_S128x4096 : 0 < S128x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  bitsLt_bf16_f32 : FTy.bits .bf16 < FTy.bits .f32
  shapeCasts_S128x4096_S128x64x64 : S128x4096.ShapeCasts S128x64x64
  inb_S128x64_S128x64_0_0 : ∀ a, (![0, 0] : Fin 2 → Nat) a + S128x64.size a ≤ S128x64.size a
  h_S128x64 : 0 < S128x64.numel
  shapeCasts_S128x64_S128x64x1 : S128x64.ShapeCasts S128x64x1
  broadcasts_S128x64x1_S128x64x64 : S128x64x1.Broadcasts S128x64x64
  shapeCasts_S128x64x64_S128x4096 : S128x64x64.ShapeCasts S128x4096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  dot_S128x4096_S128x4096_S128x128_1_1_0_0_n_n_wf : DotDims.WF S128x4096 S128x4096 S128x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11264x4096.size a
  hwx0_1 : ∀ i : grid0.Coords, EltTy.bits .i32 = 32 ∨ (Rect.block (s := S11264x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S11264x64.size a
  hwx0_2 : ∀ i : grid0.Coords, EltTy.bits .f32 = 32 ∨ (Rect.block (s := S11264x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S11264x64.size a
  hwx0_3 : ∀ i : grid0.Coords, EltTy.bits .f32 = 32 ∨ (Rect.block (s := S11264x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S11264x1.size a
  hwx0_5 : ∀ i : grid0.Coords, EltTy.bits .f32 = 32 ∨ (Rect.block (s := S11264x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x11264.size a
  hwx0_6 : ∀ i : grid0.Coords, EltTy.bits .f32 = 32 ∨ (Rect.block (s := S1x11264) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S4096x11264.size a
  hwx0_7 : ∀ i : grid0.Coords, EltTy.bits .f32 = 32 ∨ (Rect.block (s := S4096x11264) S128x128.size (cc0_transform_7 i) (hinb0_7 i)).WholeWords (EltTy.packing .f32)

variable [Facts₀]

def dot_S128x4096_S128x4096_S128x128_1_1_0_0_n_n : DotDims S128x4096 S128x4096 S128x128 where
  lhsContracting := [1]
  rhsContracting := [1]
  lhsNonContracting := [0]
  rhsNonContracting := [0]
  lhsBatch := []
  rhsBatch := []
  wf := dot_S128x4096_S128x4096_S128x128_1_1_0_0_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S11264x4096 : Shape := ⟨2, ![11264, 4096]⟩
abbrev S11264x64 : Shape := ⟨2, ![11264, 64]⟩
abbrev S4096 : Shape := ⟨1, ![4096]⟩
abbrev S11264 : Shape := ⟨1, ![11264]⟩
abbrev S11264x64x64 : Shape := ⟨3, ![11264, 64, 64]⟩
abbrev S11264x64x1 : Shape := ⟨3, ![11264, 64, 1]⟩
abbrev S11264x1 : Shape := ⟨2, ![11264, 1]⟩
abbrev S1x4096 : Shape := ⟨2, ![1, 4096]⟩
abbrev S4096x11264 : Shape := ⟨2, ![4096, 11264]⟩
abbrev S1x11264 : Shape := ⟨2, ![1, 11264]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11264x4096, .i32⟩
  | .hbm, ⟨2, _⟩ => ⟨S11264x64, .f32⟩
  | .hbm, ⟨3, _⟩ => ⟨S11264x64, .f32⟩
  | .hbm, ⟨4, _⟩ => ⟨S4096, .f32⟩
  | .hbm, ⟨5, _⟩ => ⟨S11264, .f32⟩
  | .hbm, ⟨6, _⟩ => ⟨S11264, .f32⟩
  | .hbm, ⟨7, _⟩ => ⟨S11264x4096, .f32⟩
  | .hbm, ⟨8, _⟩ => ⟨S11264x64x64, .f32⟩
  | .hbm, ⟨9, _⟩ => ⟨S11264x64x1, .f32⟩
  | .hbm, ⟨10, _⟩ => ⟨S11264x64x64, .f32⟩
  | .hbm, ⟨11, _⟩ => ⟨S11264x64x64, .f32⟩
  | .hbm, ⟨12, _⟩ => ⟨S11264x64x1, .f32⟩
  | .hbm, ⟨13, _⟩ => ⟨S11264x64x64, .f32⟩
  | .hbm, ⟨14, _⟩ => ⟨S11264x64x64, .f32⟩
  | .hbm, ⟨15, _⟩ => ⟨S11264x4096, .f32⟩
  | .hbm, ⟨16, _⟩ => ⟨S11264x1, .f32⟩
  | .hbm, ⟨17, _⟩ => ⟨S11264x4096, .f32⟩
  | .hbm, ⟨18, _⟩ => ⟨S11264x4096, .f32⟩
  | .hbm, ⟨19, _⟩ => ⟨S1x4096, .f32⟩
  | .hbm, ⟨20, _⟩ => ⟨S11264x4096, .f32⟩
  | .hbm, ⟨21, _⟩ => ⟨S11264x4096, .f32⟩
  | .hbm, ⟨22, _⟩ => ⟨S4096x11264, .f32⟩
  | .hbm, ⟨23, _⟩ => ⟨S4096x11264, .f32⟩
  | .hbm, ⟨24, _⟩ => ⟨S1x11264, .f32⟩
  | .hbm, ⟨25, _⟩ => ⟨S4096x11264, .f32⟩
  | .hbm, ⟨26, _⟩ => ⟨S4096x11264, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S11264x4096_S11264x64x64 : S11264x4096.ShapeCasts S11264x64x64
  bcast_S11264x64_S11264x64x1_0_1 : S11264x64.BroadcastsInDim S11264x64x1 (![0, 1] : Fin 2 → Fin S11264x64x1.rank)
  bcast_S11264x64x1_S11264x64x64_0_1_2 : S11264x64x1.BroadcastsInDim S11264x64x64 (![0, 1, 2] : Fin 3 → Fin S11264x64x64.rank)
  shapeCasts_S11264x64x64_S11264x4096 : S11264x64x64.ShapeCasts S11264x4096
  bcast_S11264_S11264x1_0 : S11264.BroadcastsInDim S11264x1 (![0] : Fin 1 → Fin S11264x1.rank)
  bcast_S11264x1_S11264x4096_0_1 : S11264x1.BroadcastsInDim S11264x4096 (![0, 1] : Fin 2 → Fin S11264x4096.rank)
  bcast_S4096_S1x4096_1 : S4096.BroadcastsInDim S1x4096 (![1] : Fin 1 → Fin S1x4096.rank)
  bcast_S1x4096_S11264x4096_0_1 : S1x4096.BroadcastsInDim S11264x4096 (![0, 1] : Fin 2 → Fin S11264x4096.rank)
  transposes_S11264x4096_S4096x11264_1_0 : S11264x4096.Transposes [1, 0] S4096x11264
  bcast_S11264_S1x11264_1 : S11264.BroadcastsInDim S1x11264 (![1] : Fin 1 → Fin S1x11264.rank)
  bcast_S1x11264_S4096x11264_0_1 : S1x11264.BroadcastsInDim S4096x11264 (![0, 1] : Fin 2 → Fin S4096x11264.rank)
  dot_S4096x4096_S4096x11264_S4096x11264_1_0_0_1_n_n_wf : DotDims.WF S4096x4096 S4096x11264 S4096x11264 [1] [0] [0] [1] [] []

variable [Facts₀]

def dot_S4096x4096_S4096x11264_S4096x11264_1_0_0_1_n_n : DotDims S4096x4096 S4096x11264 S4096x11264 where
  lhsContracting := [1]
  rhsContracting := [0]
  lhsNonContracting := [0]
  rhsNonContracting := [1]
  lhsBatch := []
  rhsBatch := []
  wf := dot_S4096x4096_S4096x11264_S4096x11264_1_0_0_1_n_n_wf

class Facts : Prop extends Facts₀ where

variable [Facts]
-- ==== Proof.DequantMatmul.lean ====
/-
  A matrix product against group-wise dequantized, doubly rescaled weights, entry by entry over the extended reals.

  The weights are stored as integer codes `Q[k, n]` (`k < 11264` output features, `n < 4096` input features). The 4096
  columns fall into 64 groups of 64 consecutive columns; group `g` of row `k` carries a zero point `z[k, g]` and a scale
  `s[k, g]`, and the dequantized weight is `(Q[k, n] − z[k, n / 64]) · s[k, n / 64]`, the code read as a signed integer.
  The weight is rescaled by a factor `μ₂[k]` of its row and a factor `μ₁[n]` of its column, and entry `(p, k)` of the
  result is
      Σ_{n < 4096} x[p, n] · (weight[k, n] · μ₂[k] · μ₁[n]) + bias[k].
  Two arrangements of the column factor are stated: attached to `x` (`entry`: each summand is
  `(x[p, n] · μ₁[n]) · (weight[k, n] · μ₂[k])`) and attached to the weight (`entryW`: each summand is
  `x[p, n] · ((weight[k, n] · μ₂[k]) · μ₁[n])`). They are equal summand by summand because the multiplication of extended
  reals is commutative and associative; no summand is distributed over a sum and nothing is cancelled, so no
  finiteness of the inputs is used.
-/
import Idealize.ShloMosaic.PureOps.Ideal
import Idealize.ShloMosaic.Lib.ValueIdx

noncomputable section

open scoped BigOperators

namespace Cert.Dequant

open Idealize.ShloMosaic Idealize.ShloMosaic.ValueIdx

/-- The group of column `n`: columns `64 g … 64 g + 63` form group `g`. -/
abbrev grp (n : Fin 4096) : Fin 64 := ⟨n.val / 64, by have := n.isLt; omega⟩

/-- The position of column `n` inside its group. -/
abbrev pos (n : Fin 4096) : Fin 64 := ⟨n.val % 64, Nat.mod_lt _ (by decide)⟩

/-- A column is its group's first column plus its position in the group. -/
theorem grp_pos (n : Fin 4096) : n.val = (grp n).val * 64 + (pos n).val := by
  show n.val = n.val / 64 * 64 + n.val % 64
  omega

/-- The dequantized weight at row `k`, column `n`: the code as a signed integer, less its group's zero point, times
    its group's scale. -/
def weight (Q : (⟨2, ![11264, 4096]⟩ : Shape).Idx → BitVec 32) (s z : (⟨2, ![11264, 64]⟩ : Shape).Idx → EReal)
    (k : Fin 11264) (n : Fin 4096) : EReal :=
  (FloatOps.sitofp (F := Ideal) FTy.f32 (Q (ix2 k n)) - z (ix2 k (grp n))) * s (ix2 k (grp n))

/-- Entry `(p, k)` of the result, the column factor attached to `x`. -/
def entry (x : (⟨2, ![4096, 4096]⟩ : Shape).Idx → EReal) (Q : (⟨2, ![11264, 4096]⟩ : Shape).Idx → BitVec 32)
    (s z : (⟨2, ![11264, 64]⟩ : Shape).Idx → EReal) (μ₁ : (⟨1, ![4096]⟩ : Shape).Idx → EReal)
    (μ₂ b : (⟨1, ![11264]⟩ : Shape).Idx → EReal) (p : Fin 4096) (k : Fin 11264) : EReal :=
  (∑ n : Fin 4096, (x (ix2 p n) * μ₁ (ix1 n)) * (weight Q s z k n * μ₂ (ix1 k))) + b (ix1 k)

/-- Entry `(p, k)` of the result, the column factor attached to the weight. -/
def entryW (x : (⟨2, ![4096, 4096]⟩ : Shape).Idx → EReal) (Q : (⟨2, ![11264, 4096]⟩ : Shape).Idx → BitVec 32)
    (s z : (⟨2, ![11264, 64]⟩ : Shape).Idx → EReal) (μ₁ : (⟨1, ![4096]⟩ : Shape).Idx → EReal)
    (μ₂ b : (⟨1, ![11264]⟩ : Shape).Idx → EReal) (p : Fin 4096) (k : Fin 11264) : EReal :=
  (∑ n : Fin 4096, x (ix2 p n) * ((weight Q s z k n * μ₂ (ix1 k)) * μ₁ (ix1 n))) + b (ix1 k)

/-- The two arrangements agree: `x · ((w · μ₂) · μ₁) = (x · μ₁) · (w · μ₂)` in every summand, by commutativity and
    associativity of the product. -/
theorem entryW_eq (x : (⟨2, ![4096, 4096]⟩ : Shape).Idx → EReal) (Q : (⟨2, ![11264, 4096]⟩ : Shape).Idx → BitVec 32)
    (s z : (⟨2, ![11264, 64]⟩ : Shape).Idx → EReal) (μ₁ : (⟨1, ![4096]⟩ : Shape).Idx → EReal)
    (μ₂ b : (⟨1, ![11264]⟩ : Shape).Idx → EReal) (p : Fin 4096) (k : Fin 11264) :
    entryW x Q s z μ₁ μ₂ b p k = entry x Q s z μ₁ μ₂ b p k := by
  unfold entryW entry
  refine congrArg (· + b (ix1 k)) (Finset.sum_congr rfl fun n _ => ?_)
  rw [mul_comm (weight Q s z k n * μ₂ (ix1 k)) (μ₁ (ix1 n)), ← mul_assoc]

/-- The whole result array: entry `(p, k)` at index `(p, k)`. -/
def out (x : (⟨2, ![4096, 4096]⟩ : Shape).Idx → EReal) (Q : (⟨2, ![11264, 4096]⟩ : Shape).Idx → BitVec 32)
    (s z : (⟨2, ![11264, 64]⟩ : Shape).Idx → EReal) (μ₁ : (⟨1, ![4096]⟩ : Shape).Idx → EReal)
    (μ₂ b : (⟨1, ![11264]⟩ : Shape).Idx → EReal) : (⟨2, ![4096, 11264]⟩ : Shape).Idx → EReal :=
  fun i => entry x Q s z μ₁ μ₂ b (i 0) (i 1)

theorem out_apply (x : (⟨2, ![4096, 4096]⟩ : Shape).Idx → EReal) (Q : (⟨2, ![11264, 4096]⟩ : Shape).Idx → BitVec 32)
    (s z : (⟨2, ![11264, 64]⟩ : Shape).Idx → EReal) (μ₁ : (⟨1, ![4096]⟩ : Shape).Idx → EReal)
    (μ₂ b : (⟨1, ![11264]⟩ : Shape).Idx → EReal) (p : Fin 4096) (k : Fin 11264) :
    out x Q s z μ₁ μ₂ b (ix2 p k) = entry x Q s z μ₁ μ₂ b p k := rfl

end Cert.Dequant

end
-- ==== Proof.ReferenceEntry.lean ====
/-
  The reference's result, entry by entry.

  The reference dequantizes the whole weight matrix group by group, rescales its rows by `μ₂` and then its columns by
  `μ₁`, transposes it, multiplies `x` by it and adds the bias along rows. Read at an entry `(p, k)` through its
  operations, from the last one back:
  * the sum adds the product's entry `(p, k)` and the bias's entry `k` (the bias is broadcast along rows);
  * the product's entry is `Σ_n x[p, n] · Wᵀ[n, k]`, and the transposed matrix at `(n, k)` is the matrix at `(k, n)`;
  * the rescaled matrix at `(k, n)` is `(weight[k, n] · μ₂[k]) · μ₁[n]` (the two factors are a column and a row spread
    over the matrix);
  * the dequantized matrix is built as a `[11264, 64, 64]` array: entry `(k, n)` of the `[11264, 4096]` view is entry
    `(k, n / 64, n % 64)`, where the code is the one at `(k, 64 (n / 64) + n % 64) = (k, n)` and the zero point and scale
    are those of group `n / 64` of row `k`.
  This is `Dequant.entryW`, the arrangement with the column factor on the weight; `Dequant.entryW_eq` turns it into the
  arrangement shared with the kernel.
-/
import proofs.«111332_j64330020159904_1_alg».proof.Proof.Gen.ReferenceIdeal.Read
import proofs.«111332_j64330020159904_1_alg».proof.Proof.DequantMatmul

noncomputable section

open scoped BigOperators

namespace Cert.ReferenceIdeal.Entry

open Cert.ReferenceIdeal Cert.ReferenceIdeal.Read Idealize.ShloMosaic Idealize.ShloMosaic.ValueIdx Cert.Dequant

/-! ## Where each operation reads its operand -/

theorem left_idx (p : Fin 4096) (k : Fin 11264) (n : Fin 4096) : lidx_main_v16 (ix2 p k) n = ix2 p n :=
  funext fun a => Fin.ext (by match a with | ⟨0, _⟩ => rfl | ⟨1, _⟩ => rfl)

theorem right_idx (p : Fin 4096) (k : Fin 11264) (n : Fin 4096) :
    idx_main_v15 (ridx_main_v16 (ix2 p k) n) = ix2 k n :=
  funext fun a => Fin.ext (by match a with | ⟨0, _⟩ => rfl | ⟨1, _⟩ => rfl)

theorem bias_idx (p : Fin 4096) (k : Fin 11264) : idx_main_v17 (idx_main_v18 (ix2 p k)) = ix1 k :=
  funext fun a => Fin.ext (by match a with | ⟨0, _⟩ => rfl)

theorem col_idx (k : Fin 11264) (n : Fin 4096) : idx_main_v12 (idx_main_v13 (ix2 k n)) = ix1 n :=
  funext fun a => Fin.ext (by match a with | ⟨0, _⟩ => rfl)

theorem row_idx (k : Fin 11264) (n : Fin 4096) : idx_main_v9 (idx_main_v10 (ix2 k n)) = ix1 k :=
  funext fun a => Fin.ext (by match a with | ⟨0, _⟩ => rfl)

/-- Entry `(k, n)` of the merged matrix is entry `(k, n / 64, n % 64)` of the grouped one. -/
theorem grouped_idx (k : Fin 11264) (n : Fin 4096) : idx_main_v8 (ix2 k n) = ix3 k (grp n) (pos n) :=
  funext fun a => Fin.ext (by
    have hk := k.isLt; have hn := n.isLt
    match a with
    | ⟨0, _⟩ => show (k.val * 4096 + n.val) / 4096 = k.val; omega
    | ⟨1, _⟩ => show (k.val * 4096 + n.val) / 64 % 64 = n.val / 64; omega
    | ⟨2, _⟩ => show (k.val * 4096 + n.val) % 64 = n.val % 64; omega)

/-- Entry `(k, n / 64, n % 64)` of the grouped codes is the code at `(k, n)`. -/
theorem code_idx (k : Fin 11264) (n : Fin 4096) : idx_main_v1 (ix3 k (grp n) (pos n)) = ix2 k n :=
  funext fun a => Fin.ext (by
    have hk := k.isLt; have hn := n.isLt
    match a with
    | ⟨0, _⟩ => show ((k.val * 64 + n.val / 64) * 64 + n.val % 64) / 4096 = k.val; omega
    | ⟨1, _⟩ => show ((k.val * 64 + n.val / 64) * 64 + n.val % 64) % 4096 = n.val; omega)

/-- The zero point spread over a group is read at the group. -/
theorem zero_idx (k : Fin 11264) (g r : Fin 64) : idx_main_v2 (idx_main_v3 (ix3 k g r)) = ix2 k g :=
  funext fun a => Fin.ext (by match a with | ⟨0, _⟩ => rfl | ⟨1, _⟩ => rfl)

/-- The scale spread over a group is read at the group. -/
theorem scale_idx (k : Fin 11264) (g r : Fin 64) : idx_main_v5 (idx_main_v6 (ix3 k g r)) = ix2 k g :=
  funext fun a => Fin.ext (by match a with | ⟨0, _⟩ => rfl | ⟨1, _⟩ => rfl)

/-! ## The rescaled weight matrix and the result -/

/-- The rescaled matrix at `(k, n)`: `(weight[k, n] · μ₂[k]) · μ₁[n]`. -/
theorem rescaled_apply (x1 : (⟨S11264x4096, .i32⟩ : BufTy).Contents (Elt Ideal))
    (x2 x3 : (⟨S11264x64, .f32⟩ : BufTy).Contents (Elt Ideal)) (x4 : (⟨S4096, .f32⟩ : BufTy).Contents (Elt Ideal))
    (x5 : (⟨S11264, .f32⟩ : BufTy).Contents (Elt Ideal)) (k : Fin 11264) (n : Fin 4096) :
    val_main_v14 (F := Ideal) x1 x2 x3 x4 x5 (ix2 k n) = (weight x1 x2 x3 k n * x5 (ix1 k)) * x4 (ix1 n) := by
  rw [val_main_v14_apply, val_main_v13_apply, val_main_v12_apply, col_idx, val_main_v11_apply, val_main_v10_apply,
    val_main_v9_apply, row_idx, val_main_v8_apply, grouped_idx, val_main_v7_apply, val_main_v6_apply, val_main_v5_apply,
    scale_idx, val_main_v4_apply, val_main_v3_apply, val_main_v2_apply, zero_idx, val_main_v1_apply, code_idx,
    val_main_v0_apply]
  rfl

/-- THE REFERENCE'S RESULT is `Dequant.out` of its arguments. -/
theorem result_eq (x0 : (⟨S4096x4096, .f32⟩ : BufTy).Contents (Elt Ideal))
    (x1 : (⟨S11264x4096, .i32⟩ : BufTy).Contents (Elt Ideal)) (x2 x3 : (⟨S11264x64, .f32⟩ : BufTy).Contents (Elt Ideal))
    (x4 : (⟨S4096, .f32⟩ : BufTy).Contents (Elt Ideal)) (x5 x6 : (⟨S11264, .f32⟩ : BufTy).Contents (Elt Ideal)) :
    val_main_v19 (F := Ideal) x0 x1 x2 x3 x4 x5 x6 = Dequant.out x0 x1 x2 x3 x4 x5 x6 := by
  funext i
  obtain ⟨p, k, rfl⟩ : ∃ (p : Fin 4096) (k : Fin 11264), i = ix2 p k := ⟨i 0, i 1, eq_ix2 i⟩
  rw [out_apply, ← entryW_eq, val_main_v19_apply, val_main_v16_apply, val_main_v18_apply, val_main_v17_apply, bias_idx]
  unfold entryW
  rw [Ideal.addf_def]
  refine congrArg (· + x6 (ix1 k)) (Finset.sum_congr rfl fun n _ => ?_)
  rw [left_idx, val_main_v15_apply, right_idx, rescaled_apply]

end Cert.ReferenceIdeal.Entry

end
-- ==== Proof.GroupLayout.lean ====
/-
  A row of 4096 entries seen as 64 groups of 64, read at an entry.

  Row-major order puts entry `(q, n)` of an `[a, 4096]` array at position `4096 q + n`, and entry `(q, g, r)` of an
  `[a, 64, 64]` array at `(64 q + g) · 64 + r`; the two positions agree exactly when `n = 64 g + r`. So
  * the `[a, 4096]` array cast to `[a, 64, 64]` has at `(q, g, r)` the operand's entry `(q, 64 g + r)`;
  * the `[a, 64, 64]` array cast back to `[a, 4096]` has at `(q, 64 g + r)` the operand's entry `(q, g, r)`;
  * an `[a, 64]` array of per-group values cast to `[a, 64, 1]` has at `(q, g, u)` the operand's `(q, g)`;
  * an `[a, 64, 1]` array broadcast to `[a, 64, 64]` has at `(q, g, r)` the operand's `(q, g, 0)`: one value for the
    whole group.
-/
import Idealize.ShloMosaic.Lib.Pipeline.Value
import Idealize.ShloMosaic.Lib.ValueIdx

namespace Cert.GroupLayout

open Idealize.ShloMosaic Idealize.ShloMosaic.ValueIdx

variable {α : Type}

/-- Rows split into groups: at `(q, g, r)` the operand's entry `(q, n)`, `n = 64 g + r`. -/
theorem split_apply {a : ℕ} (x : (⟨2, ![a, 4096]⟩ : Shape).Idx → α)
    (h : (⟨2, ![a, 4096]⟩ : Shape).ShapeCasts ⟨3, ![a, 64, 64]⟩) (q : Fin a) (g r : Fin 64) (n : Fin 4096)
    (hn : n.val = g.val * 64 + r.val) : shapeCast ⟨3, ![a, 64, 64]⟩ x h (ix3 q g r) = x (ix2 q n) :=
  shapeCast_apply x h _ _ (by
    rw [Shape.rowMajor_val_two, Shape.rowMajor_val_three]
    show q.val * 4096 + n.val = (q.val * 64 + g.val) * 64 + r.val
    omega)

/-- Groups merged back into rows: at `(q, n)`, `n = 64 g + r`, the operand's entry `(q, g, r)`. -/
theorem merge_apply {a : ℕ} (y : (⟨3, ![a, 64, 64]⟩ : Shape).Idx → α)
    (h : (⟨3, ![a, 64, 64]⟩ : Shape).ShapeCasts ⟨2, ![a, 4096]⟩) (q : Fin a) (n : Fin 4096) (g r : Fin 64)
    (hn : n.val = g.val * 64 + r.val) : shapeCast ⟨2, ![a, 4096]⟩ y h (ix2 q n) = y (ix3 q g r) :=
  shapeCast_apply y h _ _ (by
    rw [Shape.rowMajor_val_two, Shape.rowMajor_val_three]
    show (q.val * 64 + g.val) * 64 + r.val = q.val * 4096 + n.val
    omega)

/-- Per-group values given a trailing unit axis: at `(q, g, u)` the operand's `(q, g)`. -/
theorem addUnit_apply {a : ℕ} (v : (⟨2, ![a, 64]⟩ : Shape).Idx → α)
    (h : (⟨2, ![a, 64]⟩ : Shape).ShapeCasts ⟨3, ![a, 64, 1]⟩) (q : Fin a) (g : Fin 64) (u : Fin 1) :
    shapeCast ⟨3, ![a, 64, 1]⟩ v h (ix3 q g u) = v (ix2 q g) :=
  shapeCast_apply v h _ _ (by
    have hu : u.val = 0 := by omega
    rw [Shape.rowMajor_val_two, Shape.rowMajor_val_three]
    show q.val * 64 + g.val = (q.val * 64 + g.val) * 1 + u.val
    omega)

/-- A per-group value spread over its group: at `(q, g, r)` the operand's `(q, g, 0)`. -/
theorem spread_apply {a : ℕ} (w : (⟨3, ![a, 64, 1]⟩ : Shape).Idx → α)
    (h : (⟨3, ![a, 64, 1]⟩ : Shape).Broadcasts ⟨3, ![a, 64, 64]⟩) (q : Fin a) (g r : Fin 64) :
    broadcastTo ⟨3, ![a, 64, 64]⟩ w h (ix3 q g r) = w (ix3 q g (0 : Fin 1)) := by
  refine broadcastTo_apply w h (ix3 q g r) (ix3 q g (0 : Fin 1)) fun ax => ?_
  match ax with
  | ⟨0, _⟩ =>
    show q.val = if a = 1 then 0 else q.val
    split
    · have := q.isLt; omega
    · rfl
  | ⟨1, _⟩ =>
    show g.val = if (64 : ℕ) = 1 then 0 else g.val
    rw [if_neg (by decide)]
  | ⟨2, _⟩ =>
    show (0 : ℕ) = if (1 : ℕ) = 1 then 0 else r.val
    rw [if_pos rfl]

end Cert.GroupLayout
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.BlockEntry.lean ====
/-
  One grid point's result block, entry by entry.

  At a grid point the kernel body holds a `[128, 4096]` block of `x`, the `[1, 4096]` row of column factors `μ₁`, a
  `[128, 4096]` block of codes with its `[128, 64]` blocks of scales and zero points, the `[128, 1]` column of row
  factors `μ₂` and the `[1, 128]` row of biases of the block's 128 output features. It forms
  * the left operand `x[p, n] · μ₁[n]` (the row of column factors spread over the 128 rows),
  * the right operand: the codes as signed integers, viewed as `[128, 64, 64]` (group and position of each column), less
    the zero point of the group, times the scale of the group, viewed as `[128, 4096]` again, times `μ₂` of the row,
  * their product contracting the column axis of BOTH operands into a zero accumulator — entry `(p, q)` is
    `Σ_n left[p, n] · right[q, n]` —, plus the bias of column `q`.
  The changes of float format between the operands and the product are the identity over the extended reals.
-/
import proofs.«111332_j64330020159904_1_alg».proof.Proof.Gen.KernelIdeal.Skeleton
import proofs.«111332_j64330020159904_1_alg».proof.Proof.DequantMatmul
import proofs.«111332_j64330020159904_1_alg».proof.Proof.GroupLayout
import proofs.«111332_j64330020159904_1_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx Cert.Dequant

/-! ## The two operands of the product -/

/-- The left operand: the block of `x` with every row multiplied by the row of column factors. -/
def left (v0 : Vec Ideal S128x4096 .f32) (v1 : Vec Ideal S1x4096 .f32) : FVec Ideal S128x4096 .bf16 :=
  truncf .bf16 (mulf v0 (broadcastTo S128x4096 (shapeCast S1x4096 v1 shapeCasts_S1x4096_S1x4096) broadcasts_S1x4096_S128x4096))
    bitsLt_bf16_f32

theorem left_apply (v0 : Vec Ideal S128x4096 .f32) (v1 : Vec Ideal S1x4096 .f32) (p : Fin 128) (n : Fin 4096) :
    left v0 v1 (ix2 p n) = v0 (ix2 p n) * v1 (ix2 (0 : Fin 1) n) := by
  show v0 (ix2 p n) * broadcastTo S128x4096 (shapeCast S1x4096 v1 shapeCasts_S1x4096_S1x4096) broadcasts_S1x4096_S128x4096 (ix2 p n) = _
  rw [broadcastTo_1b_ab_apply, shapeCast_self]

/-- The right operand: the block of dequantized weights with every row multiplied by its row factor. -/
def right (v6 : Vec Ideal S128x4096 .i32) (v9 v11 : Vec Ideal S128x64 .f32) (v18 : Vec Ideal S128x1 .f32) :
    FVec Ideal S128x4096 .bf16 :=
  truncf .bf16 (mulf
    (shapeCast S128x4096 (mulf
      (subf (shapeCast S128x64x64 (sitofp .f32 v6) shapeCasts_S128x4096_S128x64x64)
        (broadcastTo S128x64x64 (shapeCast S128x64x1 v11 shapeCasts_S128x64_S128x64x1) broadcasts_S128x64x1_S128x64x64))
      (broadcastTo S128x64x64 (shapeCast S128x64x1 v9 shapeCasts_S128x64_S128x64x1) broadcasts_S128x64x1_S128x64x64))
      shapeCasts_S128x64x64_S128x4096)
    (broadcastTo S128x4096 (shapeCast S128x1 v18 shapeCasts_S128x1_S128x1) broadcasts_S128x1_S128x4096)) bitsLt_bf16_f32

theorem right_apply (v6 : Vec Ideal S128x4096 .i32) (v9 v11 : Vec Ideal S128x64 .f32) (v18 : Vec Ideal S128x1 .f32)
    (q : Fin 128) (n : Fin 4096) :
    right v6 v9 v11 v18 (ix2 q n)
      = ((FloatOps.sitofp (F := Ideal) FTy.f32 (v6 (ix2 q n)) - v11 (ix2 q (grp n))) * v9 (ix2 q (grp n)))
          * v18 (ix2 q (0 : Fin 1)) := by
  unfold right
  simp only [truncf_apply, mulf_apply]
  rw [GroupLayout.merge_apply _ _ q n (grp n) (pos n) (grp_pos n), Cert.Lib.broadcastTo_a1_ab_apply, shapeCast_self]
  simp only [mulf_apply, subf_apply]
  rw [GroupLayout.split_apply _ _ q (grp n) (pos n) n (grp_pos n), GroupLayout.spread_apply, GroupLayout.spread_apply,
    GroupLayout.addUnit_apply, GroupLayout.addUnit_apply]
  rfl

/-! ## The product's operand indices -/

/-- The left operand's row is the output's row, whatever the contraction coordinate. -/
theorem lhs_row (p q : Fin 128) (k : dot_S128x4096_S128x4096_S128x128_1_1_0_0_n_n.contr.Idx) : (dot_S128x4096_S128x4096_S128x128_1_1_0_0_n_n.lhsIdx (ix2 p q) k 0).val = p.val := by
  unfold DotDims.lhsIdx
  rw [dif_neg (show ¬(0 : Fin S128x4096.rank) ∈ dot_S128x4096_S128x4096_S128x128_1_1_0_0_n_n.lhsBatch by decide),
    dif_pos (show (0 : Fin S128x4096.rank) ∈ dot_S128x4096_S128x4096_S128x128_1_1_0_0_n_n.lhsNonContracting by decide)]
  rfl

/-- The right operand's row is the output's column, whatever the contraction coordinate. -/
theorem rhs_row (p q : Fin 128) (k : dot_S128x4096_S128x4096_S128x128_1_1_0_0_n_n.contr.Idx) : (dot_S128x4096_S128x4096_S128x128_1_1_0_0_n_n.rhsIdx (ix2 p q) k 0).val = q.val := by
  unfold DotDims.rhsIdx
  rw [dif_neg (show ¬(0 : Fin S128x4096.rank) ∈ dot_S128x4096_S128x4096_S128x128_1_1_0_0_n_n.rhsBatch by decide),
    dif_pos (show (0 : Fin S128x4096.rank) ∈ dot_S128x4096_S128x4096_S128x128_1_1_0_0_n_n.rhsNonContracting by decide)]
  rfl

/-- At output entry `(p, q)` and contraction coordinate `n` the left operand is read at `(p, n)`. -/
theorem lhsIdx_eq (p q : Fin 128) (n : Fin 4096) :
    dot_S128x4096_S128x4096_S128x128_1_1_0_0_n_n.lhsIdx (ix2 p q) ((contrEquiv1 dot_S128x4096_S128x4096_S128x128_1_1_0_0_n_n 4096 rfl rfl).symm n) = ix2 p n := by
  have hk := contrEquiv1_symm_val dot_S128x4096_S128x4096_S128x128_1_1_0_0_n_n 4096 rfl rfl n
  funext a
  refine Fin.ext ?_
  match a with
  | ⟨0, _⟩ => exact lhs_row p q _
  | ⟨1, _⟩ => exact (dot_S128x4096_S128x4096_S128x128_1_1_0_0_n_n.lhsIdx_val_of_single rfl (ix2 p q) _).trans hk

/-- There the right operand is read at `(q, n)`: its ROW is the output's column. -/
theorem rhsIdx_eq (p q : Fin 128) (n : Fin 4096) :
    dot_S128x4096_S128x4096_S128x128_1_1_0_0_n_n.rhsIdx (ix2 p q) ((contrEquiv1 dot_S128x4096_S128x4096_S128x128_1_1_0_0_n_n 4096 rfl rfl).symm n) = ix2 q n := by
  have hk := contrEquiv1_symm_val dot_S128x4096_S128x4096_S128x128_1_1_0_0_n_n 4096 rfl rfl n
  funext a
  refine Fin.ext ?_
  match a with
  | ⟨0, _⟩ => exact rhs_row p q _
  | ⟨1, _⟩ => exact (dot_S128x4096_S128x4096_S128x128_1_1_0_0_n_n.rhsIdx_val_of_single rfl (ix2 p q) _).trans hk

/-! ## The block -/

/-- The body's stored value is the product of the two operands into zero, plus the bias row spread over the rows. -/
theorem pay_eq (v0 : Vec Ideal S128x4096 .f32) (v1 : Vec Ideal S1x4096 .f32) (v6 : Vec Ideal S128x4096 .i32)
    (v9 v11 : Vec Ideal S128x64 .f32) (v18 : Vec Ideal S128x1 .f32) (v24 : Vec Ideal S1x128 .f32) :
    k0_pay1 (F := Ideal) v0 v1 v6 v9 v11 v18 v24
      = addf (matmul dot_S128x4096_S128x4096_S128x128_1_1_0_0_n_n none (left v0 v1) (right v6 v9 v11 v18) (constant S128x128 .f32 0x00000000#32))
          (broadcastTo S128x128 (shapeCast S1x128 v24 shapeCasts_S1x128_S1x128) broadcasts_S1x128_S128x128) := rfl

/-- ENTRY `(p, q)` OF THE BLOCK: `Σ_n (x[p, n] · μ₁[n]) · (((code[q, n] − zero[q, n / 64]) · scale[q, n / 64]) · μ₂[q]) + bias[q]`,
    every array read in the point's blocks. -/
theorem pay_apply (v0 : Vec Ideal S128x4096 .f32) (v1 : Vec Ideal S1x4096 .f32) (v6 : Vec Ideal S128x4096 .i32)
    (v9 v11 : Vec Ideal S128x64 .f32) (v18 : Vec Ideal S128x1 .f32) (v24 : Vec Ideal S1x128 .f32) (p q : Fin 128) :
    k0_pay1 (F := Ideal) v0 v1 v6 v9 v11 v18 v24 (ix2 p q)
      = (∑ n : Fin 4096, (v0 (ix2 p n) * v1 (ix2 (0 : Fin 1) n))
          * (((FloatOps.sitofp (F := Ideal) FTy.f32 (v6 (ix2 q n)) - v11 (ix2 q (grp n))) * v9 (ix2 q (grp n)))
              * v18 (ix2 q (0 : Fin 1))))
        + v24 (ix2 (0 : Fin 1) q) := by
  rw [pay_eq, addf_apply, broadcastTo_1b_ab_apply, shapeCast_self]
  simp only [matmul]
  rw [Ideal.matmul_constant_zero_apply, ← Equiv.sum_comp (contrEquiv1 dot_S128x4096_S128x4096_S128x128_1_1_0_0_n_n 4096 rfl rfl).symm]
  refine congrArg (· + v24 (ix2 (0 : Fin 1) q)) (Finset.sum_congr rfl fun n _ => ?_)
  rw [lhsIdx_eq, rhsIdx_eq, left_apply, right_apply]

end Cert.KernelIdeal.Block

end
-- ==== Proof.KernelArray.lean ====
/-
  From the grid points' blocks to the whole result array.

  The grid has 32 × 88 points; point `(i, j)` works on rows `128 i … 128 i + 127` of `x` and on output features
  `128 j … 128 j + 127`: it is handed block `i` of `x` (all 4096 columns), block `j` of the codes, of the scales and of
  the zero points, the whole row of column factors, block `j` of the column of row factors and block `j` of the row of
  biases, and it writes block `(i, j)` of the result. The three small arrays are reshapes of the arguments done before
  the grid starts: the column factors as a `[1, 4096]` row, the row factors as an `[11264, 1]` column, the biases as a
  `[1, 11264]` row.

  An element of a block sits in its array, on each axis, at block index × block size + its coordinate in the block. So
  the block entry `(p, q)` of point `(i, j)`, which the body computes from its blocks (`Block.pay_apply`), is
  `Dequant.entry` at `(128 i + p, 128 j + q)` of the arguments: every point writes its block of ONE array,
  `Dequant.out`. The 2816 blocks tile the `[4096, 11264]` result — entry `(r, k)` lies in the block of point
  `(r / 128, k / 128)`, the `(r / 128) · 88 + k / 128`-th point in the grid's order — so after the run the result array is
  `Dequant.out` of the arguments.
-/
import proofs.«111332_j64330020159904_1_alg».proof.Proof.Gen.KernelIdeal.Value
import proofs.«111332_j64330020159904_1_alg».proof.Proof.DequantMatmul
import proofs.«111332_j64330020159904_1_alg».proof.Proof.BlockEntry
import proofs.«111332_j64330020159904_1_alg».proof.Proof.LibColumn
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Dequant
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The three arrays reshaped before the grid starts -/

/-- The column factors as the grid finds them: the argument as a `[1, 4096]` row. -/
theorem V_colFactors (c : Dev nD) :
    (V m c main_v0 : S1x4096.Idx → EReal)
      = shapeCast S1x4096 (m ((c : Thread nD τ).loc main_arg4) : S4096.Idx → EReal) shapeCasts_S4096_S1x4096 := by
  dsimp only [Gen.V, Gen.hostOps0]; after_results; rfl

/-- The row factors as the grid finds them: the argument as an `[11264, 1]` column. -/
theorem V_rowFactors (c : Dev nD) :
    (V m c main_v1 : S11264x1.Idx → EReal)
      = shapeCast S11264x1 (m ((c : Thread nD τ).loc main_arg5) : S11264.Idx → EReal) shapeCasts_S11264_S11264x1 := by
  dsimp only [Gen.V, Gen.hostOps0]; after_results; rfl

/-- The biases as the grid finds them: the argument as a `[1, 11264]` row. -/
theorem V_bias (c : Dev nD) :
    (V m c main_v2 : S1x11264.Idx → EReal)
      = shapeCast S1x11264 (m ((c : Thread nD τ).loc main_arg6) : S11264.Idx → EReal) shapeCasts_S11264_S1x11264 := by
  dsimp only [Gen.V, Gen.hostOps0]; after_results; rfl

/-! ## Which block each window hands a point -/

/-- The printed index maps over the grid, relative to the result's block `(i, j)`: `x` is at block `(i, 0)`; the codes,
    scales, zero points and row factors at `(j, 0)`; the column factors at `(0, 0)`; the biases at `(0, j)`; and
    `i < 32`, `j < 88`. -/
theorem idx_facts : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = win0_7.index t (1 : Fin 2) ∧ win0_2.index t (1 : Fin 2) = 0
    ∧ win0_3.index t (0 : Fin 2) = win0_7.index t (1 : Fin 2) ∧ win0_3.index t (1 : Fin 2) = 0
    ∧ win0_4.index t (0 : Fin 2) = 0 ∧ win0_4.index t (1 : Fin 2) = 0
    ∧ win0_5.index t (0 : Fin 2) = win0_7.index t (1 : Fin 2) ∧ win0_5.index t (1 : Fin 2) = 0
    ∧ win0_6.index t (0 : Fin 2) = 0 ∧ win0_6.index t (1 : Fin 2) = win0_7.index t (1 : Fin 2)
    ∧ win0_7.index t (0 : Fin 2) ≤ 31 ∧ win0_7.index t (1 : Fin 2) ≤ 87 :=
  (by decide +kernel : ∀ t : Fin grid0.N, _)

theorem point_lt (a : Fin 32) (b : Fin 88) : a.val * 88 + b.val < grid0.N := by
  have hN : grid0.N = 2816 := N_0
  have ha := a.isLt; have hb := b.isLt
  omega

/-- Point `88 a + b` of the grid's order writes block `(a, b)`. -/
theorem idx_onto : ∀ (a : Fin 32) (b : Fin 88),
    win0_7.index ⟨a.val * 88 + b.val, point_lt a b⟩ (0 : Fin 2) = a.val
    ∧ win0_7.index ⟨a.val * 88 + b.val, point_lt a b⟩ (1 : Fin 2) = b.val := by
  decide +kernel

/-! ## Each input block read in its array -/

/-- Block entry `(p, n)` of `x` at a point is the argument's entry `(128 i + p, n)`. -/
theorem blk_x (c : Dev nD) (t : Fin cfg0.N) (p : Fin 128) (n : Fin 4096) (r : Fin 4096)
    (hr : r.val = win0_7.index t (0 : Fin 2) * 128 + p.val) :
    (iblk m c 0 t : Vec Ideal S128x4096 .f32) (ix2 p n)
      = (m ((c : Thread nD τ).loc main_arg0) : S4096x4096.Idx → EReal) (ix2 r n) := by
  obtain ⟨e0, e1, -⟩ := idx_facts t
  unfold iblk
  rw [View.read_apply]
  show V m c main_arg0 _ = _
  refine (congrFun (V_main_arg0 m c) _).trans ?_
  refine congrArg (m ((c : Thread nD τ).loc main_arg0) : S4096x4096.Idx → EReal) (funext fun a => Fin.ext ?_)
  match a with
  | ⟨0, _⟩ => show win0_0.index t (0 : Fin 2) * 128 + 1 * p.val = r.val; omega
  | ⟨1, _⟩ => show win0_0.index t (1 : Fin 2) * 4096 + 1 * n.val = n.val; omega

/-- Block entry `(q, n)` of the codes at a point is the argument's entry `(128 j + q, n)`. -/
theorem blk_codes (c : Dev nD) (t : Fin cfg0.N) (q : Fin 128) (n : Fin 4096) (k : Fin 11264)
    (hk : k.val = win0_7.index t (1 : Fin 2) * 128 + q.val) :
    (iblk m c 1 t : Vec Ideal S128x4096 .i32) (ix2 q n)
      = (m ((c : Thread nD τ).loc main_arg1) : S11264x4096.Idx → BitVec 32) (ix2 k n) := by
  obtain ⟨-, -, e0, e1, -⟩ := idx_facts t
  unfold iblk
  rw [View.read_apply]
  show V m c main_arg1 _ = _
  refine (congrFun (V_main_arg1 m c) _).trans ?_
  refine congrArg (m ((c : Thread nD τ).loc main_arg1) : S11264x4096.Idx → BitVec 32) (funext fun a => Fin.ext ?_)
  match a with
  | ⟨0, _⟩ => show win0_1.index t (0 : Fin 2) * 128 + 1 * q.val = k.val; omega
  | ⟨1, _⟩ => show win0_1.index t (1 : Fin 2) * 4096 + 1 * n.val = n.val; omega

/-- Block entry `(q, g)` of the scales at a point is the argument's entry `(128 j + q, g)`. -/
theorem blk_scales (c : Dev nD) (t : Fin cfg0.N) (q : Fin 128) (g : Fin 64) (k : Fin 11264)
    (hk : k.val = win0_7.index t (1 : Fin 2) * 128 + q.val) :
    (iblk m c 2 t : Vec Ideal S128x64 .f32) (ix2 q g)
      = (m ((c : Thread nD τ).loc main_arg2) : S11264x64.Idx → EReal) (ix2 k g) := by
  obtain ⟨-, -, -, -, e0, e1, -⟩ := idx_facts t
  unfold iblk
  rw [View.read_apply]
  show V m c main_arg2 _ = _
  refine (congrFun (V_main_arg2 m c) _).trans ?_
  refine congrArg (m ((c : Thread nD τ).loc main_arg2) : S11264x64.Idx → EReal) (funext fun a => Fin.ext ?_)
  match a with
  | ⟨0, _⟩ => show win0_2.index t (0 : Fin 2) * 128 + 1 * q.val = k.val; omega
  | ⟨1, _⟩ => show win0_2.index t (1 : Fin 2) * 64 + 1 * g.val = g.val; omega

/-- Block entry `(q, g)` of the zero points at a point is the argument's entry `(128 j + q, g)`. -/
theorem blk_zeros (c : Dev nD) (t : Fin cfg0.N) (q : Fin 128) (g : Fin 64) (k : Fin 11264)
    (hk : k.val = win0_7.index t (1 : Fin 2) * 128 + q.val) :
    (iblk m c 3 t : Vec Ideal S128x64 .f32) (ix2 q g)
      = (m ((c : Thread nD τ).loc main_arg3) : S11264x64.Idx → EReal) (ix2 k g) := by
  obtain ⟨-, -, -, -, -, -, e0, e1, -⟩ := idx_facts t
  unfold iblk
  rw [View.read_apply]
  show V m c main_arg3 _ = _
  refine (congrFun (V_main_arg3 m c) _).trans ?_
  refine congrArg (m ((c : Thread nD τ).loc main_arg3) : S11264x64.Idx → EReal) (funext fun a => Fin.ext ?_)
  match a with
  | ⟨0, _⟩ => show win0_3.index t (0 : Fin 2) * 128 + 1 * q.val = k.val; omega
  | ⟨1, _⟩ => show win0_3.index t (1 : Fin 2) * 64 + 1 * g.val = g.val; omega

/-- Entry `(0, n)` of the row of column factors at a point is the argument's entry `n`. -/
theorem blk_colFactors (c : Dev nD) (t : Fin cfg0.N) (n : Fin 4096) :
    (iblk m c 4 t : Vec Ideal S1x4096 .f32) (ix2 (0 : Fin 1) n)
      = (m ((c : Thread nD τ).loc main_arg4) : S4096.Idx → EReal) (ix1 n) := by
  obtain ⟨-, -, -, -, -, -, -, -, e0, e1, -⟩ := idx_facts t
  unfold iblk
  rw [View.read_apply]
  show (V m c main_v0 : S1x4096.Idx → EReal) _ = _
  rw [V_colFactors]
  refine Eq.trans (congrArg _ (funext fun a => Fin.ext ?_)) (shapeCast_a_1a_apply _ _ (0 : Fin 1) n)
  match a with
  | ⟨0, _⟩ => show win0_4.index t (0 : Fin 2) * 1 + 1 * 0 = 0; omega
  | ⟨1, _⟩ => show win0_4.index t (1 : Fin 2) * 4096 + 1 * n.val = n.val; omega

/-- Block entry `(q, 0)` of the column of row factors at a point is the argument's entry `128 j + q`. -/
theorem blk_rowFactors (c : Dev nD) (t : Fin cfg0.N) (q : Fin 128) (k : Fin 11264)
    (hk : k.val = win0_7.index t (1 : Fin 2) * 128 + q.val) :
    (iblk m c 5 t : Vec Ideal S128x1 .f32) (ix2 q (0 : Fin 1))
      = (m ((c : Thread nD τ).loc main_arg5) : S11264.Idx → EReal) (ix1 k) := by
  obtain ⟨-, -, -, -, -, -, -, -, -, -, e0, e1, -⟩ := idx_facts t
  unfold iblk
  rw [View.read_apply]
  show (V m c main_v1 : S11264x1.Idx → EReal) _ = _
  rw [V_rowFactors]
  refine Eq.trans (congrArg _ (funext fun a => Fin.ext ?_)) (Cert.Lib.shapeCast_a_a1_apply _ _ k (0 : Fin 1))
  match a with
  | ⟨0, _⟩ => show win0_5.index t (0 : Fin 2) * 128 + 1 * q.val = k.val; omega
  | ⟨1, _⟩ => show win0_5.index t (1 : Fin 2) * 1 + 1 * 0 = 0; omega

/-- Block entry `(0, q)` of the row of biases at a point is the argument's entry `128 j + q`. -/
theorem blk_bias (c : Dev nD) (t : Fin cfg0.N) (q : Fin 128) (k : Fin 11264)
    (hk : k.val = win0_7.index t (1 : Fin 2) * 128 + q.val) :
    (iblk m c 6 t : Vec Ideal S1x128 .f32) (ix2 (0 : Fin 1) q)
      = (m ((c : Thread nD τ).loc main_arg6) : S11264.Idx → EReal) (ix1 k) := by
  obtain ⟨-, -, -, -, -, -, -, -, -, -, -, -, e0, e1, -⟩ := idx_facts t
  unfold iblk
  rw [View.read_apply]
  show (V m c main_v2 : S1x11264.Idx → EReal) _ = _
  rw [V_bias]
  refine Eq.trans (congrArg _ (funext fun a => Fin.ext ?_)) (shapeCast_a_1a_apply _ _ (0 : Fin 1) k)
  match a with
  | ⟨0, _⟩ => show win0_6.index t (0 : Fin 2) * 1 + 1 * 0 = 0; omega
  | ⟨1, _⟩ => show win0_6.index t (1 : Fin 2) * 128 + 1 * q.val = k.val; omega

/-! ## What a point writes back, the cover, the array -/

/-- WHAT POINT `t` WRITES BACK is its block of `Dequant.out` of the arguments. -/
theorem flushed_eq (c : Dev nD) (t : Fin cfg0.N) :
    (dats m 0 c).flushed 7 t
      = ((cfg0.win 7).blk t).view.read (Elt Ideal) (Dequant.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  unfold out0_7
  rw [View.canon_unit_zero hz]
  simp only [View.ld_unit_zero (S := S128x4096) hz, View.ld_unit_zero (S := S1x4096) hz, View.ld_unit_zero (S := S128x64) hz,
    View.ld_unit_zero (S := S128x1) hz, View.ld_unit_zero (S := S1x128) hz]
  obtain ⟨-, -, -, -, -, -, -, -, -, -, -, -, -, -, b0, b1⟩ := idx_facts t
  funext y
  obtain ⟨p, q, rfl⟩ : ∃ (p q : Fin 128), y = ix2 p q := ⟨y 0, y 1, eq_ix2 y⟩
  obtain ⟨r, hr⟩ : ∃ r : Fin 4096, r.val = win0_7.index t (0 : Fin 2) * 128 + p.val :=
    ⟨⟨win0_7.index t (0 : Fin 2) * 128 + p.val, by have := p.isLt; omega⟩, rfl⟩
  obtain ⟨k, hk⟩ : ∃ k : Fin 11264, k.val = win0_7.index t (1 : Fin 2) * 128 + q.val :=
    ⟨⟨win0_7.index t (1 : Fin 2) * 128 + q.val, by have := q.isLt; omega⟩, rfl⟩
  have hemb : ((cfg0.win 7).blk t).view.emb (ix2 p q) = (ix2 r k : S4096x11264.Idx) := funext fun a => Fin.ext (by
    match a with
    | ⟨0, _⟩ => show win0_7.index t (0 : Fin 2) * 128 + 1 * p.val = r.val; omega
    | ⟨1, _⟩ => show win0_7.index t (1 : Fin 2) * 128 + 1 * q.val = k.val; omega)
  show k0_pay1 (F := Ideal) (iblk m c 0 t) (iblk m c 4 t) (iblk m c 1 t) (iblk m c 2 t) (iblk m c 3 t) (iblk m c 5 t) (iblk m c 6 t) (ix2 p q)
    = Dequant.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 p q))
  rw [hemb, out_apply]
  refine (Block.pay_apply (iblk m c 0 t) (iblk m c 4 t) (iblk m c 1 t) (iblk m c 2 t) (iblk m c 3 t) (iblk m c 5 t) (iblk m c 6 t) p q).trans ?_
  unfold entry weight
  rw [blk_bias m c t q k hk, blk_rowFactors m c t q k hk]
  refine congrArg (· + (m ((c : Thread nD τ).loc main_arg6) : S11264.Idx → EReal) (ix1 k)) (Finset.sum_congr rfl fun n _ => ?_)
  rw [blk_x m c t p n r hr, blk_colFactors m c t n, blk_codes m c t q n k hk, blk_zeros m c t q (grp n) k hk,
    blk_scales m c t q (grp n) k hk]

/-- An index of the result is in point `t`'s block iff each coordinate is in the block's range on its axis. -/
theorem mem_blk (t : Fin cfg0.N) (i : S4096x11264.Idx) :
    i ∈ ((cfg0.win 7).blk t).view.set ↔ ∀ a : Fin 2, win0_7.index t a * S128x128.size a ≤ (i a).val
      ∧ (i a).val < win0_7.index t a * S128x128.size a + S128x128.size a := by
  show i ∈ ((View.whole main_v3).slice (win0_7.rect t)).set ↔ _
  rw [View.set_slice_whole, Rect.mem_set_unit]
  exact Iff.rfl

/-- THE BLOCKS TILE THE RESULT: entry `(r, k)` is in the block of point `88 (r / 128) + k / 128`. -/
theorem cover (i : S4096x11264.Idx) :
    ∃ t : Fin cfg0.N, (cfg0.win 7).flush t = true ∧ i ∈ ((cfg0.win 7).blk t).view.set := by
  have hi0 : (i 0).val < 4096 := (i 0).isLt
  have hi1 : (i 1).val < 11264 := (i 1).isLt
  obtain ⟨a, ha⟩ : ∃ a : Fin 32, a.val = (i 0).val / 128 := ⟨⟨(i 0).val / 128, by omega⟩, rfl⟩
  obtain ⟨b, hb⟩ : ∃ b : Fin 88, b.val = (i 1).val / 128 := ⟨⟨(i 1).val / 128, by omega⟩, rfl⟩
  obtain ⟨e0, e1⟩ := idx_onto a b
  refine ⟨⟨a.val * 88 + b.val, point_lt a b⟩, flush0_7 _, ?_⟩
  rw [mem_blk]
  intro ax
  match ax with
  | ⟨0, _⟩ =>
    show win0_7.index ⟨a.val * 88 + b.val, point_lt a b⟩ (0 : Fin 2) * 128 ≤ (i 0).val
      ∧ (i 0).val < win0_7.index ⟨a.val * 88 + b.val, point_lt a b⟩ (0 : Fin 2) * 128 + 128
    rw [e0]; omega
  | ⟨1, _⟩ =>
    show win0_7.index ⟨a.val * 88 + b.val, point_lt a b⟩ (1 : Fin 2) * 128 ≤ (i 1).val
      ∧ (i 1).val < win0_7.index ⟨a.val * 88 + b.val, point_lt a b⟩ (1 : Fin 2) * 128 + 128
    rw [e1]; omega

/-- THE RESULT ARRAY after the run is `Dequant.out` of the arguments. -/
theorem final (c : Dev nD) :
    (dats m 0 c).arrAt 7 cfg0.N = Dequant.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed_eq m c t) cover

/-- The run, read: the result array at `Dequant.out` of the arguments, the arguments unchanged. -/
theorem run : θ_run defs (onTc (τ := τ) (main (F := Ideal))) ⟨m, fun _ => 0, ρ⟩ fun r => ∀ c : Dev nD,
      r.2.mem ((c : Thread nD τ).loc main_v3) = Dequant.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.lean ====
/-
  A linear layer with 3-bit group-quantized weights: `out = x · Wᵀ + bias` over the extended reals.

  `x` is `[4096, 4096]`, the weight codes `Q` are `[11264, 4096]` signed integers, and every run of 64 consecutive columns
  of a row of `Q` is a group with its own scale and zero point (`scales`, `zeros`: `[11264, 64]`). The weight is
      W[k, n] = (Q[k, n] − zeros[k, n / 64]) · scales[k, n / 64] · μ₂[k] · μ₁[n],
  with a factor `μ₂` per row and a factor `μ₁` per column, and the result is `out[p, k] = Σ_n x[p, n] · W[k, n] + bias[k]`.

  The reference builds `W` whole, transposes it and multiplies. The kernel tiles the result into 32 × 88 blocks of
  128 × 128; for a block it multiplies 128 rows of `x` by the column factors, dequantizes 128 rows of codes and
  multiplies them by their row factors, and contracts the two over all 4096 columns at once — so it computes
      out[p, k] = Σ_n (x[p, n] · μ₁[n]) · (((Q[k, n] − zeros[k, n / 64]) · scales[k, n / 64]) · μ₂[k]) + bias[k].
  The only difference is where the column factor `μ₁[n]` sits in each summand, and the product of extended reals is
  commutative and associative (`Dequant.entryW_eq`); the kernel's narrower float format for the two operands is the
  identity over the extended reals. No sum is split and nothing is cancelled, so the inputs' finiteness is not used.

  The modules: `DequantMatmul` states the result entry by entry and the law; `ReferenceEntry` reads the reference's
  operations at an entry; `BlockEntry` reads one grid point's block at an entry (`GroupLayout`, `LibColumn`: the
  reshapes and broadcasts involved); `KernelArray` places every block in the result array and shows the blocks tile
  it. Here the two runs are set side by side. Nothing was rewritten when the kernel was idealized, so that claim is
  `True`; the two kernel programs' frames are the generated ones, and the reference's frame is its run with the
  result dropped.
-/
import proofs.«111332_j64330020159904_1_alg».proof.Defs
import proofs.«111332_j64330020159904_1_alg».proof.Proof.Gen.Kernel
import proofs.«111332_j64330020159904_1_alg».proof.Proof.Gen.Kernel.Skeleton
import proofs.«111332_j64330020159904_1_alg».proof.Proof.Gen.Kernel.Launch
import proofs.«111332_j64330020159904_1_alg».proof.Proof.Gen.Kernel.Points
import proofs.«111332_j64330020159904_1_alg».proof.Proof.Gen.Kernel.Frame
import proofs.«111332_j64330020159904_1_alg».proof.Proof.Gen.KernelIdeal
import proofs.«111332_j64330020159904_1_alg».proof.Proof.Gen.KernelIdeal.Skeleton
import proofs.«111332_j64330020159904_1_alg».proof.Proof.Gen.KernelIdeal.Launch
import proofs.«111332_j64330020159904_1_alg».proof.Proof.Gen.KernelIdeal.Points
import proofs.«111332_j64330020159904_1_alg».proof.Proof.Gen.KernelIdeal.Frame
import proofs.«111332_j64330020159904_1_alg».proof.Proof.Gen.ReferenceIdeal
import proofs.«111332_j64330020159904_1_alg».proof.Proof.Gen.Pre_finite_inputs
import proofs.«111332_j64330020159904_1_alg».proof.Proof.Gen.KernelIdeal.Value
import proofs.«111332_j64330020159904_1_alg».proof.Proof.Gen.ReferenceIdeal.Run
import proofs.«111332_j64330020159904_1_alg».proof.Proof.Gen.ReferenceIdeal.Read
import proofs.«111332_j64330020159904_1_alg».proof.Proof.DequantMatmul
import proofs.«111332_j64330020159904_1_alg».proof.Proof.ReferenceEntry
import proofs.«111332_j64330020159904_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- Both programs end with the result array at `Dequant.out` of the (agreeing) arguments. -/
theorem algebraic : Cert.algebraic_KernelIdeal_ReferenceIdeal := by
  intro m ρ m' ρ' _ hagree
  refine ⟨fun c => Cert.Dequant.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v19_eq, Cert.ReferenceIdeal.Entry.result_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
